-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1x128 : Shape := ⟨2, ![1, 128]⟩
abbrev S1600000x128 : Shape := ⟨2, ![1600000, 128]⟩
abbrev S100000x1 : Shape := ⟨2, ![100000, 1]⟩

abbrev nBuf : Space → Nat
  | .hbm => 91
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1600000, .i1⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x1, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x1, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1600000, .i1⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S1600000x1, .f32⟩
  | .hbm, ⟨106, _⟩ => ⟨S1600000x128, .f32⟩
  | .hbm, ⟨107, _⟩ => ⟨S1600000x128, .f32⟩
  | .hbm, ⟨108, _⟩ => ⟨S_, .f32⟩
  | .hbm, ⟨109, _⟩ => ⟨S100000x128, .f32⟩
  | .hbm, ⟨110, _⟩ => ⟨S1600000x1, .i32⟩
  | .hbm, ⟨111, _⟩ => ⟨S100000x128, .f32⟩
  | .hbm, ⟨112, _⟩ => ⟨S100000x1, .f32⟩
  | .hbm, ⟨113, _⟩ => ⟨S100000x128, .f32⟩
  | .hbm, ⟨114, _⟩ => ⟨S100000x128, .f32⟩
  | .hbm, ⟨115, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call0_cst : Ref sig .tc := ⟨.hbm, 89, rfl⟩
abbrev main_call0_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_10 : Ref sig .tc := ⟨.hbm, 96, rfl⟩
abbrev main_v72 : Ref sig .tc := ⟨.hbm, 97, rfl⟩
abbrev main_v73 : Ref sig .tc := ⟨.hbm, 98, rfl⟩
abbrev main_c_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The run of the idealized kernel program with its RESULT named.

  The program is five stretches in a row: host operations, the first tiled stage, host operations, the second tiled stage,
  host operations. The buffer contents at each boundary are a fold from the launch memory: a host stretch applies its
  operations in order, a tiled stage replaces its output array by what its grid points write back and leaves everything
  else alone. Every weakly fair execution terminates without a fault in a state whose every unscoped buffer holds the last
  fold's value; read at the result buffer that is the statement below, and at each argument buffer the fold walks back to
  the launch contents.
-/
import proofs.«121674_j33440615367377_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v66) = W5 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v66 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Whole

end
-- ==== Proof.LibDenseRows.lean ====
/-
  The two dense stages of the network, entry by entry over the extended reals, for any numbers of rows and features.

  * An affine layer `A·B + b`: entry `(r, c)` is `∑_q A(r,q)·B(q,c) + b(c)`.
  * A batch normalisation in evaluation mode followed by the positive part: entry `(r, c)` is
    `max(((h(r,c) − μ(c)) · (σ(c) + ε)^(-1/2)) · γ(c) + β(c), 0)`, with `ε` the single-precision number nearest `10⁻⁵`,
    the same word on both sides.

  Both are ROW-LOCAL: row `r` of the result is a function of row `r` of the matrix operand alone. So applying a stage to a
  block of consecutive rows gives the same block of rows of the stage applied to the whole matrix — which is all that a
  row-tiled evaluation uses, and needs no law of arithmetic.
-/
import Idealize.ShloMosaic.PureOps.Ideal
import Idealize.ShloMosaic.Lib.ValueIdx

noncomputable section

open scoped BigOperators

namespace Cert.Dense

open Idealize.ShloMosaic Idealize.ShloMosaic.ValueIdx

/-- The affine layer `A·B + b`, entry by entry: the bias is laid along every row. -/
def affine {m k n : Nat} (A : (⟨2, ![m, k]⟩ : Shape).Idx → Ideal .f32) (B : (⟨2, ![k, n]⟩ : Shape).Idx → Ideal .f32)
    (b : (⟨1, ![n]⟩ : Shape).Idx → Ideal .f32) : (⟨2, ![m, n]⟩ : Shape).Idx → Ideal .f32 :=
  fun i => (∑ q : Fin k, A (ix2 (i 0) q) * B (ix2 q (i 1))) + b (ix1 (i 1))

/-- Batch normalisation with fixed statistics (scale `γ`, shift `β`, mean `μ`, variance `σ`, each a vector along the
    features), then the positive part, entry by entry. -/
def normRelu {m n : Nat} (h : (⟨2, ![m, n]⟩ : Shape).Idx → Ideal .f32) (γ β μ σ : (⟨1, ![n]⟩ : Shape).Idx → Ideal .f32) :
    (⟨2, ![m, n]⟩ : Shape).Idx → Ideal .f32 :=
  fun i => max ((((h i - μ (ix1 (i 1))) * Ideal.rsqrt (σ (ix1 (i 1)) + Ideal.ofBits .f32 0x3727C5AC#32)) * γ (ix1 (i 1)))
    + β (ix1 (i 1))) (Ideal.ofBits .f32 0x00000000#32)

theorem affine_apply {m k n : Nat} (A : (⟨2, ![m, k]⟩ : Shape).Idx → Ideal .f32) (B : (⟨2, ![k, n]⟩ : Shape).Idx → Ideal .f32)
    (b : (⟨1, ![n]⟩ : Shape).Idx → Ideal .f32) (r : Fin m) (c : Fin n) :
    affine A B b (ix2 r c) = (∑ q : Fin k, A (ix2 r q) * B (ix2 q c)) + b (ix1 c) := rfl

theorem normRelu_apply {m n : Nat} (h : (⟨2, ![m, n]⟩ : Shape).Idx → Ideal .f32) (γ β μ σ : (⟨1, ![n]⟩ : Shape).Idx → Ideal .f32)
    (r : Fin m) (c : Fin n) :
    normRelu h γ β μ σ (ix2 r c)
      = max ((((h (ix2 r c) - μ (ix1 c)) * Ideal.rsqrt (σ (ix1 c) + Ideal.ofBits .f32 0x3727C5AC#32)) * γ (ix1 c)) + β (ix1 c))
          (Ideal.ofBits .f32 0x00000000#32) := rfl

/-- Row `r'` of the affine layer of `A'` is row `r` of the affine layer of `A` when row `r'` of `A'` is row `r` of `A`. -/
theorem affine_row {m m' k n : Nat} (A : (⟨2, ![m, k]⟩ : Shape).Idx → Ideal .f32) (A' : (⟨2, ![m', k]⟩ : Shape).Idx → Ideal .f32)
    (B : (⟨2, ![k, n]⟩ : Shape).Idx → Ideal .f32) (b : (⟨1, ![n]⟩ : Shape).Idx → Ideal .f32) (r : Fin m) (r' : Fin m') (c : Fin n)
    (h : ∀ q : Fin k, A' (ix2 r' q) = A (ix2 r q)) : affine A' B b (ix2 r' c) = affine A B b (ix2 r c) := by
  rw [affine_apply, affine_apply]
  exact congrArg (· + b (ix1 c)) (Finset.sum_congr rfl fun q _ => congrArg (· * B (ix2 q c)) (h q))

/-- Entry `(r', c)` of the normalised positive part of `h'` is entry `(r, c)` of that of `h` when the two entries agree. -/
theorem normRelu_entry {m m' n : Nat} (h : (⟨2, ![m, n]⟩ : Shape).Idx → Ideal .f32) (h' : (⟨2, ![m', n]⟩ : Shape).Idx → Ideal .f32)
    (γ β μ σ : (⟨1, ![n]⟩ : Shape).Idx → Ideal .f32) (r : Fin m) (r' : Fin m') (c : Fin n)
    (e : h' (ix2 r' c) = h (ix2 r c)) : normRelu h' γ β μ σ (ix2 r' c) = normRelu h γ β μ σ (ix2 r c) := by
  rw [normRelu_apply, normRelu_apply, e]

end Cert.Dense

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«121674_j33440615367377_1_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.KernelBodies.lean ====
/-
  What each tiled stage computes on one block of 5000 rows, entry by entry.

  The first stage's body is a matrix product of the block with the 128×128 weights, accumulated from zero, plus the bias
  laid along the rows: the affine layer of the block. The second stage's body first normalises the block feature by
  feature (subtract the mean, times the inverse root of variance + ε, times the scale, plus the shift), takes the positive
  part, and then applies the same kind of affine layer. The narrowing of the matrix operands before the product is a
  change of format, which at the exact values is the identity.
-/
import proofs.«121674_j33440615367377_1_alg».proof.Proof.Gen.KernelIdeal.Skeleton
import proofs.«121674_j33440615367377_1_alg».proof.Proof.LibDenseRows
import proofs.«121674_j33440615367377_1_alg».proof.Proof.LibRowOps
import Idealize.ShloMosaic.Lib.ValueLayout
import Idealize.ShloMosaic.Lib.Pipeline.Value

noncomputable section

open scoped BigOperators

namespace Cert.KernelIdeal.Bodies

open Cert.KernelIdeal Cert.KernelIdeal.Gen Idealize.ShloMosaic Idealize.ShloMosaic.ValueIdx

/-- The product's dimension numbers are the plain ones: rows by columns, one contracted axis. -/
theorem dims_plain : dot_S5000x128_S128x128_S5000x128_1_0_0_1_n_n = DotDims.plain 5000 128 128 := rfl

/-- The first stage's stored value at an entry of the block: the affine layer of the block. -/
theorem stage1_entry (x : Vec Ideal S5000x128 .f32) (w : Vec Ideal S128x128 .f32) (b : Vec Ideal S128 .f32)
    (p : Fin 5000) (q : Fin 128) :
    k0_pay1 (F := Ideal) x w b (ix2 p q) = Dense.affine x w b (ix2 p q) := by
  unfold k0_pay1
  exact LibRowOps.kernel_affine_apply dot_S5000x128_S128x128_S5000x128_1_0_0_1_n_n dims_plain none
    (truncf .bf16 x bitsLt_bf16_f32) (truncf .bf16 w bitsLt_bf16_f32) b shapeCasts_S128_S1x128 broadcasts_S1x128_S5000x128 p q

/-- The normalised positive part as the second stage's body spells it, at an entry of the block. -/
theorem normRelu_entry (x : Vec Ideal S5000x128 .f32) (γ β μ σ : Vec Ideal S128 .f32) (p : Fin 5000) (k : Fin 128) :
    maximumf
        (addf
          (mulf
            (mulf (subf (shapeCast S5000x128 x shapeCasts_S5000x128_S5000x128)
                (broadcastTo S5000x128 (shapeCast S1x128 μ shapeCasts_S128_S1x128) broadcasts_S1x128_S5000x128))
              (broadcastTo S5000x128
                (rsqrt (addf (shapeCast S1x128 σ shapeCasts_S128_S1x128)
                  (broadcast S1x128 (Scalar.ofBits (F := Ideal) .f32 0x3727C5AC#32)))) broadcasts_S1x128_S5000x128))
            (broadcastTo S5000x128 (shapeCast S1x128 γ shapeCasts_S128_S1x128) broadcasts_S1x128_S5000x128))
          (broadcastTo S5000x128 (shapeCast S1x128 β shapeCasts_S128_S1x128) broadcasts_S1x128_S5000x128))
        (broadcast S5000x128 (Scalar.ofBits (F := Ideal) .f32 0x00000000#32)) (ix2 p k)
      = Dense.normRelu x γ β μ σ (ix2 p k) := by
  rw [Dense.normRelu_apply, maximumf_apply, addf_apply, mulf_apply, mulf_apply, subf_apply, shapeCast_self,
    broadcastTo_1b_ab_apply, broadcastTo_1b_ab_apply, broadcastTo_1b_ab_apply, broadcastTo_1b_ab_apply,
    shapeCast_a_1a_apply, shapeCast_a_1a_apply, shapeCast_a_1a_apply]
  show max ((((x (ix2 p k) - μ (ix1 k)) * Ideal.rsqrt (shapeCast S1x128 σ shapeCasts_S128_S1x128 (ix2 (0 : Fin 1) k) + _)) * γ (ix1 k)) + β (ix1 k)) _ = _
  rw [shapeCast_a_1a_apply]
  rfl

/-- The second stage's stored value at an entry of the block: the affine layer of the block's normalised positive part. -/
theorem stage2_entry (x : Vec Ideal S5000x128 .f32) (γ β μ σ : Vec Ideal S128 .f32) (w : Vec Ideal S128x128 .f32)
    (b : Vec Ideal S128 .f32) (p : Fin 5000) (q : Fin 128) :
    k1_pay1 (F := Ideal) x γ β μ σ w b (ix2 p q) = Dense.affine (Dense.normRelu x γ β μ σ) w b (ix2 p q) := by
  unfold k1_pay1
  refine (LibRowOps.kernel_affine_apply dot_S5000x128_S128x128_S5000x128_1_0_0_1_n_n dims_plain none _ _ b
    shapeCasts_S128_S1x128 broadcasts_S1x128_S5000x128 p q).trans ?_
  rw [Dense.affine_apply]
  refine congrArg (· + b (ix1 q)) (Finset.sum_congr rfl fun k _ => congrArg (· * w (ix2 k q)) ?_)
  exact normRelu_entry x γ β μ σ p k

end Cert.KernelIdeal.Bodies

end
-- ==== Proof.KernelBlocks0.lean ====
/-
  From blocks to the array, for the first tiled stage: the affine layer `x·W₁ + b₁`.

  The grid has twenty points; point `t` is handed rows `5000·t … 5000·t + 4999` of `x` and the whole of `W₁` and `b₁`, and
  writes back rows `5000·t … 5000·t + 4999` of the output. Because the affine layer is row-local, what point `t` writes
  is that block of rows of the affine layer of the WHOLE of `x`; the twenty blocks tile the 100000 rows (row `r` is in the
  block of point `r / 5000`), so the array the stage leaves is the affine layer of the whole of `x`. Stated for any
  buffer contents `V` at the stage's entry.
-/
import proofs.«121674_j33440615367377_1_alg».proof.Proof.Gen.KernelIdeal.Frame
import proofs.«121674_j33440615367377_1_alg».proof.Proof.KernelBodies
import Idealize.ShloMosaic.Lib.Pipeline.Value

set_option maxRecDepth 16384

noncomputable section

open scoped BigOperators

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array the stage leaves: the affine layer of the arrays the stage finds. -/
abbrev whole (c : Dev nD) : S100000x128.Idx → Elt Ideal .f32 :=
  Dense.affine (V c main_arg0 : S100000x128.Idx → Elt Ideal .f32) (V c main_arg2 : S128x128.Idx → Elt Ideal .f32)
    (V c main_arg3 : S128.Idx → Elt Ideal .f32)

/-- The index maps over the grid: the row operands move with the point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Point `t`'s block of `x` is rows `5000·t …` of `x`. -/
theorem rows_block (c : Dev nD) (t : Fin cfg0.N) (y : S5000x128.Idx) (k : S100000x128.Idx)
    (h0 : (k 0).val = t.val * 5000 + (y 0).val) (h1 : (k 1).val = (y 1).val) :
    (iblk0 V c 0 t : Vec Ideal S5000x128 .f32) y = (V c main_arg0 : S100000x128.Idx → Elt Ideal .f32) k := by
  obtain ⟨e0, e1, -⟩ := idx_facts t
  unfold iblk0
  rw [View.read_apply]
  show (V c main_arg0 : S100000x128.Idx → Elt Ideal .f32) (((cfg0.win 0).blk t).view.emb y) = _
  refine congrArg _ (funext fun a => Fin.ext ?_)
  match a with
  | ⟨0, _⟩ => show win0_0.index t (0 : Fin 2) * 5000 + 1 * (y 0).val = (k 0).val; rw [e0, h0]; omega
  | ⟨1, _⟩ => show win0_0.index t (1 : Fin 2) * 128 + 1 * (y 1).val = (k 1).val; rw [e1, h1]; omega

/-- Every point is handed the whole of the weights. -/
theorem weights_block (c : Dev nD) (t : Fin cfg0.N) :
    (iblk0 V c 1 t : Vec Ideal S128x128 .f32) = (V c main_arg2 : S128x128.Idx → Elt Ideal .f32) := by
  obtain ⟨-, -, e2, e3, -⟩ := idx_facts t
  funext y
  unfold iblk0
  rw [View.read_apply]
  show (V c main_arg2 : S128x128.Idx → Elt Ideal .f32) (((cfg0.win 1).blk t).view.emb y) = _
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- Every point is handed the whole of the bias. -/
theorem bias_block (c : Dev nD) (t : Fin cfg0.N) :
    (iblk0 V c 2 t : Vec Ideal S128 .f32) = (V c main_arg3 : S128.Idx → Elt Ideal .f32) := by
  obtain ⟨-, -, -, -, e4, -⟩ := idx_facts t
  funext y
  unfold iblk0
  rw [View.read_apply]
  show (V c main_arg3 : S128.Idx → Elt Ideal .f32) (((cfg0.win 2).blk t).view.emb y) = _
  refine congrArg _ (funext fun a => Fin.ext ?_)
  match a with
  | ⟨0, _⟩ => show win0_2.index t (0 : Fin 1) * 128 + 1 * (y 0).val = (y 0).val; rw [e4]; omega

/-- One entry of what a point stores, against the affine layer of a matrix `A` whose row `i 0` is the block's row `j 0`. -/
theorem block_entry (X0 : Vec Ideal S5000x128 .f32) (X1 : Vec Ideal S128x128 .f32) (X2 : Vec Ideal S128 .f32)
    (A : S100000x128.Idx → Ideal .f32) (j : S5000x128.Idx) (i : S100000x128.Idx) (hi1 : (i 1).val = (j 1).val)
    (h0 : ∀ k : Fin 128, X0 (ix2 (j 0) k) = A (ix2 (i 0) k)) :
    k0_pay1 (F := Ideal) X0 X1 X2 j = Dense.affine A X1 X2 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  rw [Bodies.stage1_entry]
  exact Dense.affine_row A X0 X1 X2 r p s h0

/-- WHAT POINT `t` WRITES BACK is block `t` of the affine layer of the whole arrays. -/
theorem flushed_eq (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [weights_block V c t, bias_block V c t]
  obtain ⟨-, -, -, -, -, e5, e6⟩ := idx_facts t
  funext j
  show k0_pay1 (F := Ideal) (iblk0 V c 0 t) (V c main_arg2) (V c main_arg3) j = whole V c (((cfg0.win 3).blk t).view.emb j)
  refine block_entry (iblk0 V c 0 t) (V c main_arg2) (V c main_arg3) (V c main_arg0) j (((cfg0.win 3).blk t).view.emb j) ?_ fun k => ?_
  · show win0_3.index t (1 : Fin 2) * 128 + 1 * (j 1).val = (j 1).val
    rw [e6]; omega
  · refine rows_block V c t (ix2 (j 0) k) (ix2 ((((cfg0.win 3).blk t).view.emb j) 0) k) ?_ rfl
    show win0_3.index t (0 : Fin 2) * 5000 + 1 * (j 0).val = t.val * 5000 + (j 0).val
    rw [e5]; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v31).slice (win0_3.rect t)).set ↔ _
  rw [View.set_slice_whole, Rect.mem_set_unit]
  exact Iff.rfl

/-- THE ARRAY after the stage: the affine layer of the arrays the stage found. Row `r` is written by point `r / 5000`. -/
theorem final (c : Dev nD) : (dat0 V c).arrAt 3 cfg0.N = whole V c :=
  (dat0 V c).arrAt_eq_of_cover 3 (whole V c) (fun t _ => flushed_eq V c t) fun i => by
    have hi0 : (i 0).val < 100000 := (i 0).isLt
    have hi1 : (i 1).val < 128 := (i 1).isLt
    have hN : cfg0.N = 20 := N_0
    have ht : (i 0).val / 5000 < cfg0.N := by rw [hN]; omega
    obtain ⟨-, -, -, -, -, e5, e6⟩ := idx_facts ⟨(i 0).val / 5000, ht⟩
    refine ⟨⟨(i 0).val / 5000, ht⟩, flush0_3 _, ?_⟩
    rw [mem_blk]
    intro a
    match a with
    | ⟨0, _⟩ =>
      show win0_3.index ⟨(i 0).val / 5000, ht⟩ (0 : Fin 2) * 5000 ≤ (i 0).val
        ∧ (i 0).val < win0_3.index ⟨(i 0).val / 5000, ht⟩ (0 : Fin 2) * 5000 + 5000
      rw [e5]
      show (i 0).val / 5000 * 5000 ≤ (i 0).val ∧ (i 0).val < (i 0).val / 5000 * 5000 + 5000
      omega
    | ⟨1, _⟩ =>
      show win0_3.index ⟨(i 0).val / 5000, ht⟩ (1 : Fin 2) * 128 ≤ (i 1).val
        ∧ (i 1).val < win0_3.index ⟨(i 0).val / 5000, ht⟩ (1 : Fin 2) * 128 + 128
      rw [e6]; omega

end Cert.KernelIdeal.Stage1

end
-- ==== Proof.KernelBlocks1.lean ====
/-
  From blocks to the array, for the second tiled stage: normalise, positive part, then the affine layer `·W₂ + b₂`.

  As in the first stage, point `t` of the twenty is handed rows `5000·t … 5000·t + 4999` of the stage's input `h` and the
  whole of the four normalisation vectors, of `W₂` and of `b₂`, and writes back the same rows of the output. Normalising
  and taking the positive part act entry by entry and the affine layer row by row, so what point `t` writes is that block
  of rows of the stage applied to the WHOLE of `h`; the blocks tile the rows. Stated for any buffer contents `V` at the
  stage's entry.
-/
import proofs.«121674_j33440615367377_1_alg».proof.Proof.Gen.KernelIdeal.Frame
import proofs.«121674_j33440615367377_1_alg».proof.Proof.KernelBodies
import Idealize.ShloMosaic.Lib.Pipeline.Value

set_option maxRecDepth 16384

noncomputable section

open scoped BigOperators

namespace Cert.KernelIdeal.Stage2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array the stage leaves: the affine layer of the normalised positive part of the array the stage finds. -/
abbrev whole (c : Dev nD) : S100000x128.Idx → Elt Ideal .f32 :=
  Dense.affine
    (Dense.normRelu (V c main_v48 : S100000x128.Idx → Elt Ideal .f32) (V c main_arg6 : S128.Idx → Elt Ideal .f32)
      (V c main_arg7 : S128.Idx → Elt Ideal .f32) (V c main_arg8 : S128.Idx → Elt Ideal .f32) (V c main_arg9 : S128.Idx → Elt Ideal .f32))
    (V c main_arg4 : S128x128.Idx → Elt Ideal .f32) (V c main_arg5 : S128.Idx → Elt Ideal .f32)

/-- The index maps over the grid: the row operands move with the point, the vectors and the weights stay. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0 ∧ win1_6.index t (0 : Fin 1) = 0
    ∧ win1_7.index t (0 : Fin 2) = t.val ∧ win1_7.index t (1 : Fin 2) = 0 :=
  (by decide +kernel : ∀ t : Fin grid1.N, _)

/-- Point `t`'s block of the input is rows `5000·t …` of it. -/
theorem rows_block (c : Dev nD) (t : Fin cfg1.N) (y : S5000x128.Idx) (k : S100000x128.Idx)
    (h0 : (k 0).val = t.val * 5000 + (y 0).val) (h1 : (k 1).val = (y 1).val) :
    (iblk1 V c 0 t : Vec Ideal S5000x128 .f32) y = (V c main_v48 : S100000x128.Idx → Elt Ideal .f32) k := by
  obtain ⟨e0, e1, -⟩ := idx_facts t
  unfold iblk1
  rw [View.read_apply]
  show (V c main_v48 : S100000x128.Idx → Elt Ideal .f32) (((cfg1.win 0).blk t).view.emb y) = _
  refine congrArg _ (funext fun a => Fin.ext ?_)
  match a with
  | ⟨0, _⟩ => show win1_0.index t (0 : Fin 2) * 5000 + 1 * (y 0).val = (k 0).val; rw [e0, h0]; omega
  | ⟨1, _⟩ => show win1_0.index t (1 : Fin 2) * 128 + 1 * (y 1).val = (k 1).val; rw [e1, h1]; omega

/-- Every point is handed the whole of the scale vector. -/
theorem scale_block (c : Dev nD) (t : Fin cfg1.N) :
    (iblk1 V c 1 t : Vec Ideal S128 .f32) = (V c main_arg6 : S128.Idx → Elt Ideal .f32) := by
  have e := (idx_facts t).2.2.1
  funext y
  unfold iblk1
  rw [View.read_apply]
  show (V c main_arg6 : S128.Idx → Elt Ideal .f32) (((cfg1.win 1).blk t).view.emb y) = _
  refine congrArg _ (funext fun a => Fin.ext ?_)
  match a with
  | ⟨0, _⟩ => show win1_1.index t (0 : Fin 1) * 128 + 1 * (y 0).val = (y 0).val; rw [e]; omega

/-- Every point is handed the whole of the shift vector. -/
theorem shift_block (c : Dev nD) (t : Fin cfg1.N) :
    (iblk1 V c 2 t : Vec Ideal S128 .f32) = (V c main_arg7 : S128.Idx → Elt Ideal .f32) := by
  have e := (idx_facts t).2.2.2.1
  funext y
  unfold iblk1
  rw [View.read_apply]
  show (V c main_arg7 : S128.Idx → Elt Ideal .f32) (((cfg1.win 2).blk t).view.emb y) = _
  refine congrArg _ (funext fun a => Fin.ext ?_)
  match a with
  | ⟨0, _⟩ => show win1_2.index t (0 : Fin 1) * 128 + 1 * (y 0).val = (y 0).val; rw [e]; omega

/-- Every point is handed the whole of the mean vector. -/
theorem mean_block (c : Dev nD) (t : Fin cfg1.N) :
    (iblk1 V c 3 t : Vec Ideal S128 .f32) = (V c main_arg8 : S128.Idx → Elt Ideal .f32) := by
  have e := (idx_facts t).2.2.2.2.1
  funext y
  unfold iblk1
  rw [View.read_apply]
  show (V c main_arg8 : S128.Idx → Elt Ideal .f32) (((cfg1.win 3).blk t).view.emb y) = _
  refine congrArg _ (funext fun a => Fin.ext ?_)
  match a with
  | ⟨0, _⟩ => show win1_3.index t (0 : Fin 1) * 128 + 1 * (y 0).val = (y 0).val; rw [e]; omega

/-- Every point is handed the whole of the variance vector. -/
theorem var_block (c : Dev nD) (t : Fin cfg1.N) :
    (iblk1 V c 4 t : Vec Ideal S128 .f32) = (V c main_arg9 : S128.Idx → Elt Ideal .f32) := by
  have e := (idx_facts t).2.2.2.2.2.1
  funext y
  unfold iblk1
  rw [View.read_apply]
  show (V c main_arg9 : S128.Idx → Elt Ideal .f32) (((cfg1.win 4).blk t).view.emb y) = _
  refine congrArg _ (funext fun a => Fin.ext ?_)
  match a with
  | ⟨0, _⟩ => show win1_4.index t (0 : Fin 1) * 128 + 1 * (y 0).val = (y 0).val; rw [e]; omega

/-- Every point is handed the whole of the weights. -/
theorem weights_block (c : Dev nD) (t : Fin cfg1.N) :
    (iblk1 V c 5 t : Vec Ideal S128x128 .f32) = (V c main_arg4 : S128x128.Idx → Elt Ideal .f32) := by
  obtain ⟨-, -, -, -, -, -, e2, e3, -⟩ := idx_facts t
  funext y
  unfold iblk1
  rw [View.read_apply]
  show (V c main_arg4 : S128x128.Idx → Elt Ideal .f32) (((cfg1.win 5).blk t).view.emb y) = _
  refine congrArg _ (funext fun a => Fin.ext ?_)
  match a with
  | ⟨0, _⟩ => show win1_5.index t (0 : Fin 2) * 128 + 1 * (y 0).val = (y 0).val; rw [e2]; omega
  | ⟨1, _⟩ => show win1_5.index t (1 : Fin 2) * 128 + 1 * (y 1).val = (y 1).val; rw [e3]; omega

/-- Every point is handed the whole of the bias. -/
theorem bias_block (c : Dev nD) (t : Fin cfg1.N) :
    (iblk1 V c 6 t : Vec Ideal S128 .f32) = (V c main_arg5 : S128.Idx → Elt Ideal .f32) := by
  obtain ⟨-, -, -, -, -, -, -, -, e4, -⟩ := idx_facts t
  funext y
  unfold iblk1
  rw [View.read_apply]
  show (V c main_arg5 : S128.Idx → Elt Ideal .f32) (((cfg1.win 6).blk t).view.emb y) = _
  refine congrArg _ (funext fun a => Fin.ext ?_)
  match a with
  | ⟨0, _⟩ => show win1_6.index t (0 : Fin 1) * 128 + 1 * (y 0).val = (y 0).val; rw [e4]; omega

/-- One entry of what a point stores, against the stage applied to a matrix `A` whose row `i 0` is the block's row `j 0`. -/
theorem block_entry (X0 : Vec Ideal S5000x128 .f32) (γ β μ σ : Vec Ideal S128 .f32) (X5 : Vec Ideal S128x128 .f32) (X6 : Vec Ideal S128 .f32)
    (A : S100000x128.Idx → Ideal .f32) (j : S5000x128.Idx) (i : S100000x128.Idx) (hi1 : (i 1).val = (j 1).val)
    (h0 : ∀ k : Fin 128, X0 (ix2 (j 0) k) = A (ix2 (i 0) k)) :
    k1_pay1 (F := Ideal) X0 γ β μ σ X5 X6 j = Dense.affine (Dense.normRelu A γ β μ σ) X5 X6 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  rw [Bodies.stage2_entry]
  exact Dense.affine_row (Dense.normRelu A γ β μ σ) (Dense.normRelu X0 γ β μ σ) X5 X6 r p s
    fun k => Dense.normRelu_entry A X0 γ β μ σ r p k (h0 k)

/-- WHAT POINT `t` WRITES BACK is block `t` of the stage applied to the whole arrays. -/
theorem flushed_eq (c : Dev nD) (t : Fin cfg1.N) :
    (dat1 V c).flushed 7 t = ((cfg1.win 7).blk t).view.read (Elt Ideal) (whole V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1]
  rw [scale_block V c t, shift_block V c t, mean_block V c t, var_block V c t, weights_block V c t, bias_block V c t]
  obtain ⟨-, -, -, -, -, -, -, -, -, e5, e6⟩ := idx_facts t
  funext j
  show k1_pay1 (F := Ideal) (iblk1 V c 0 t) (V c main_arg6) (V c main_arg7) (V c main_arg8) (V c main_arg9) (V c main_arg4) (V c main_arg5) j
    = whole V c (((cfg1.win 7).blk t).view.emb j)
  refine block_entry (iblk1 V c 0 t) (V c main_arg6) (V c main_arg7) (V c main_arg8) (V c main_arg9) (V c main_arg4) (V c main_arg5)
    (V c main_v48) j (((cfg1.win 7).blk t).view.emb j) ?_ fun k => ?_
  · show win1_7.index t (1 : Fin 2) * 128 + 1 * (j 1).val = (j 1).val
    rw [e6]; omega
  · refine rows_block V c t (ix2 (j 0) k) (ix2 ((((cfg1.win 7).blk t).view.emb j) 0) k) ?_ rfl
    show win1_7.index t (0 : Fin 2) * 5000 + 1 * (j 0).val = t.val * 5000 + (j 0).val
    rw [e5]; omega

/-- An index of the array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v49).slice (win1_7.rect t)).set ↔ _
  rw [View.set_slice_whole, Rect.mem_set_unit]
  exact Iff.rfl

/-- THE ARRAY after the stage: the stage applied to the arrays it found. Row `r` is written by point `r / 5000`. -/
theorem final (c : Dev nD) : (dat1 V c).arrAt 7 cfg1.N = whole V c :=
  (dat1 V c).arrAt_eq_of_cover 7 (whole V c) (fun t _ => flushed_eq V c t) fun i => by
    have hi0 : (i 0).val < 100000 := (i 0).isLt
    have hi1 : (i 1).val < 128 := (i 1).isLt
    have hN : cfg1.N = 20 := N_1
    have ht : (i 0).val / 5000 < cfg1.N := by rw [hN]; omega
    obtain ⟨-, -, -, -, -, -, -, -, -, e5, e6⟩ := idx_facts ⟨(i 0).val / 5000, ht⟩
    refine ⟨⟨(i 0).val / 5000, ht⟩, flush1_7 _, ?_⟩
    rw [mem_blk]
    intro a
    match a with
    | ⟨0, _⟩ =>
      show win1_7.index ⟨(i 0).val / 5000, ht⟩ (0 : Fin 2) * 5000 ≤ (i 0).val
        ∧ (i 0).val < win1_7.index ⟨(i 0).val / 5000, ht⟩ (0 : Fin 2) * 5000 + 5000
      rw [e5]
      show (i 0).val / 5000 * 5000 ≤ (i 0).val ∧ (i 0).val < (i 0).val / 5000 * 5000 + 5000
      omega
    | ⟨1, _⟩ =>
      show win1_7.index ⟨(i 0).val / 5000, ht⟩ (1 : Fin 2) * 128 ≤ (i 1).val
        ∧ (i 1).val < win1_7.index ⟨(i 0).val / 5000, ht⟩ (1 : Fin 2) * 128 + 128
      rw [e6]; omega

end Cert.KernelIdeal.Stage2

end
-- ==== Proof.GraphProduct.lean ====
/-
  The sparse product with the normalised adjacency matrix, as ONE function of its five operands: the source and
  destination node of every edge, the weight of every edge, the weight of every node's self loop, and the node features
  `h`. Row `n` of the result is the sum over the edges into `n` of (edge weight · the source's row of `h`), plus
  (self-loop weight of `n`) · (row `n` of `h`).

  It is spelt here exactly as a line of whole-array operations — gather the sources' rows (a negative node number
  counted from the end), scale by the edge weights laid along the features, scatter-add into zeros by destination, add
  the self-loop term — and is never opened: both programs apply this same line, twice, to equal operands.
-/
import proofs.«121674_j33440615367377_1_alg».proof.Proof.Gen.ReferenceIdeal
import Idealize.ShloMosaic.PureOps.Ideal

noncomputable section

namespace Cert.Graph

open Cert.ReferenceIdeal Cert.ReferenceIdeal.Gen Idealize.ShloMosaic Idealize.ShloMosaic.TcCoe Idealize.SL.Sem

/-- Normalised-adjacency product of the features `h`: gather by source, scale by edge weight, scatter-add by destination,
    plus the self-loop weight times `h`. -/
def spmm (src dst : (⟨S1600000, .i32⟩ : BufTy).Contents (Elt Ideal)) (ew : (⟨S1600000, .f32⟩ : BufTy).Contents (Elt Ideal))
    (sw : (⟨S100000, .f32⟩ : BufTy).Contents (Elt Ideal)) (h : (⟨S100000x128, .f32⟩ : BufTy).Contents (Elt Ideal)) :
    (⟨S100000x128, .f32⟩ : BufTy).Contents (Elt Ideal) :=
  addf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf
        (Host.gather gather_S100000x128_S1600000x1_S1600000x128_1_0_n_n_0_1_1128 h
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
        (broadcastInDim S1600000x128 ![0, 1] bcast_S1600000x1_S1600000x128_0_1
          (broadcastInDim S1600000x1 ![0] bcast_S1600000_S1600000x1_0 ew))))
    (mulf
      (broadcastInDim S100000x128 ![0, 1] bcast_S100000x1_S100000x128_0_1
        (broadcastInDim S100000x1 ![0] bcast_S100000_S100000x1_0 sw))
      h)

end Cert.Graph

end
-- ==== Proof.KernelStretches.lean ====
/-
  The three stretches of host operations of the idealized kernel program, each read as a function of ANY buffer contents
  `W` it starts from.

  * The first stretch computes, from the edge list alone, the four graph quantities both stages share: every edge's
    source and destination node, every edge's weight (inverse root degrees of its two ends, zero on a self loop) and
    every node's self-loop weight (the inverse degree). They are the same operations, in the same order, as the
    reference's, so they are named by the reference's own stage functions.
  * The second and the third stretch are each one product with the normalised adjacency matrix (`Graph.spmm`) of the
    array the tiled stage before it left.
  * A buffer a stretch does not write keeps its contents.
-/
import proofs.«121674_j33440615367377_1_alg».proof.Proof.Gen.KernelIdeal.Launch
import proofs.«121674_j33440615367377_1_alg».proof.Proof.Gen.ReferenceIdeal.Read
import proofs.«121674_j33440615367377_1_alg».proof.Proof.GraphProduct
import Idealize.ShloMosaic.Lib.StableHlo.Run

noncomputable section

namespace Cert.KernelIdeal.Stretches

open Cert.KernelIdeal Cert.KernelIdeal.Gen Idealize.ShloMosaic Idealize.ShloMosaic.TcCoe Idealize.SL.Sem Idealize.ShloMosaic.StableHlo

variable (W : Valuation τ sig (Elt Ideal))

/-! ## The first stretch: the graph quantities, from the edge list -/

set_option maxHeartbeats 4000000 in
/-- Every edge's source node. -/
theorem sources : after (hostOps0 (F := Ideal)) W (Proc.devRef .tc main_v1)
    = Cert.ReferenceIdeal.Read.val_main_v1 (F := Ideal) (W (Proc.devRef .tc main_arg1)) := by
  after_results_simp
  rfl

set_option maxHeartbeats 4000000 in
/-- Every edge's destination node. -/
theorem destinations : after (hostOps0 (F := Ideal)) W (Proc.devRef .tc main_v3)
    = Cert.ReferenceIdeal.Read.val_main_v3 (F := Ideal) (W (Proc.devRef .tc main_arg1)) := by
  after_results_simp
  rfl

set_option maxHeartbeats 4000000 in
/-- Every edge's weight. -/
theorem edgeWeights : after (hostOps0 (F := Ideal)) W (Proc.devRef .tc main_v28)
    = Cert.ReferenceIdeal.Read.val_main_v28 (F := Ideal) (W (Proc.devRef .tc main_arg1)) := by
  after_results_simp
  rfl

set_option maxHeartbeats 4000000 in
/-- Every node's self-loop weight. -/
theorem selfWeights : after (hostOps0 (F := Ideal)) W (Proc.devRef .tc main_v30)
    = Cert.ReferenceIdeal.Read.val_main_v30 (F := Ideal) (W (Proc.devRef .tc main_arg1)) := by
  after_results_simp
  rfl

/-! The first stretch writes none of the dense stages' operands. -/

set_option maxHeartbeats 4000000 in
theorem kept0_arg0 : after (hostOps0 (F := Ideal)) W (Proc.devRef .tc main_arg0) = W (Proc.devRef .tc main_arg0) := by
  after_results_simp
set_option maxHeartbeats 4000000 in
theorem kept0_arg2 : after (hostOps0 (F := Ideal)) W (Proc.devRef .tc main_arg2) = W (Proc.devRef .tc main_arg2) := by
  after_results_simp
set_option maxHeartbeats 4000000 in
theorem kept0_arg3 : after (hostOps0 (F := Ideal)) W (Proc.devRef .tc main_arg3) = W (Proc.devRef .tc main_arg3) := by
  after_results_simp
set_option maxHeartbeats 4000000 in
theorem kept0_arg4 : after (hostOps0 (F := Ideal)) W (Proc.devRef .tc main_arg4) = W (Proc.devRef .tc main_arg4) := by
  after_results_simp
set_option maxHeartbeats 4000000 in
theorem kept0_arg5 : after (hostOps0 (F := Ideal)) W (Proc.devRef .tc main_arg5) = W (Proc.devRef .tc main_arg5) := by
  after_results_simp
set_option maxHeartbeats 4000000 in
theorem kept0_arg6 : after (hostOps0 (F := Ideal)) W (Proc.devRef .tc main_arg6) = W (Proc.devRef .tc main_arg6) := by
  after_results_simp
set_option maxHeartbeats 4000000 in
theorem kept0_arg7 : after (hostOps0 (F := Ideal)) W (Proc.devRef .tc main_arg7) = W (Proc.devRef .tc main_arg7) := by
  after_results_simp
set_option maxHeartbeats 4000000 in
theorem kept0_arg8 : after (hostOps0 (F := Ideal)) W (Proc.devRef .tc main_arg8) = W (Proc.devRef .tc main_arg8) := by
  after_results_simp
set_option maxHeartbeats 4000000 in
theorem kept0_arg9 : after (hostOps0 (F := Ideal)) W (Proc.devRef .tc main_arg9) = W (Proc.devRef .tc main_arg9) := by
  after_results_simp

/-! ## The second stretch: the adjacency product of the first stage's array -/

set_option maxHeartbeats 4000000 in
theorem product1 : after (hostOps1 (F := Ideal)) W (Proc.devRef .tc main_v48)
    = Cert.Graph.spmm (W (Proc.devRef .tc main_v1)) (W (Proc.devRef .tc main_v3)) (W (Proc.devRef .tc main_v28))
        (W (Proc.devRef .tc main_v30)) (W (Proc.devRef .tc main_v31)) := by
  after_results_simp
  rfl

set_option maxHeartbeats 4000000 in
theorem kept1_v1 : after (hostOps1 (F := Ideal)) W (Proc.devRef .tc main_v1) = W (Proc.devRef .tc main_v1) := by
  after_results_simp
set_option maxHeartbeats 4000000 in
theorem kept1_v3 : after (hostOps1 (F := Ideal)) W (Proc.devRef .tc main_v3) = W (Proc.devRef .tc main_v3) := by
  after_results_simp
set_option maxHeartbeats 4000000 in
theorem kept1_v28 : after (hostOps1 (F := Ideal)) W (Proc.devRef .tc main_v28) = W (Proc.devRef .tc main_v28) := by
  after_results_simp
set_option maxHeartbeats 4000000 in
theorem kept1_v30 : after (hostOps1 (F := Ideal)) W (Proc.devRef .tc main_v30) = W (Proc.devRef .tc main_v30) := by
  after_results_simp
set_option maxHeartbeats 4000000 in
theorem kept1_arg4 : after (hostOps1 (F := Ideal)) W (Proc.devRef .tc main_arg4) = W (Proc.devRef .tc main_arg4) := by
  after_results_simp
set_option maxHeartbeats 4000000 in
theorem kept1_arg5 : after (hostOps1 (F := Ideal)) W (Proc.devRef .tc main_arg5) = W (Proc.devRef .tc main_arg5) := by
  after_results_simp
set_option maxHeartbeats 4000000 in
theorem kept1_arg6 : after (hostOps1 (F := Ideal)) W (Proc.devRef .tc main_arg6) = W (Proc.devRef .tc main_arg6) := by
  after_results_simp
set_option maxHeartbeats 4000000 in
theorem kept1_arg7 : after (hostOps1 (F := Ideal)) W (Proc.devRef .tc main_arg7) = W (Proc.devRef .tc main_arg7) := by
  after_results_simp
set_option maxHeartbeats 4000000 in
theorem kept1_arg8 : after (hostOps1 (F := Ideal)) W (Proc.devRef .tc main_arg8) = W (Proc.devRef .tc main_arg8) := by
  after_results_simp
set_option maxHeartbeats 4000000 in
theorem kept1_arg9 : after (hostOps1 (F := Ideal)) W (Proc.devRef .tc main_arg9) = W (Proc.devRef .tc main_arg9) := by
  after_results_simp

/-! ## The third stretch: the adjacency product of the second stage's array -/

set_option maxHeartbeats 4000000 in
theorem product2 : after (hostOps2 (F := Ideal)) W (Proc.devRef .tc main_v66)
    = Cert.Graph.spmm (W (Proc.devRef .tc main_v1)) (W (Proc.devRef .tc main_v3)) (W (Proc.devRef .tc main_v28))
        (W (Proc.devRef .tc main_v30)) (W (Proc.devRef .tc main_v49)) := by
  after_results_simp
  rfl

end Cert.KernelIdeal.Stretches

end
-- ==== Proof.KernelWhole.lean ====
/-
  The idealized kernel program's result as the composition of its four steps.

  The last boundary's contents at the result buffer are read back through the five stretches: the last host stretch is the
  adjacency product of the second stage's array; that array is the second dense step of the stage's input; the input is the
  adjacency product (middle host stretch) of the first stage's array; and that array is the affine layer of `x`. The four
  graph quantities are computed once, by the first host stretch, from the edge list, and no later stretch or stage
  writes them; the dense steps' operands are arguments, which nothing writes. So the result is

      spmm (W₂-step (spmm (W₁-step x)))

  over the launch contents of the arguments: the same composition the reference computes.
-/
import proofs.«121674_j33440615367377_1_alg».proof.Proof.Gen.KernelIdeal.Frame
import proofs.«121674_j33440615367377_1_alg».proof.Proof.KernelBlocks0
import proofs.«121674_j33440615367377_1_alg».proof.Proof.KernelBlocks1
import proofs.«121674_j33440615367377_1_alg».proof.Proof.KernelStretches

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The graph quantities at each boundary: computed by the first stretch, kept by everything after -/

theorem src1 : W1 m ρ c (Proc.devRef .tc main_v1) = Cert.ReferenceIdeal.Read.val_main_v1 (F := Ideal) (m ((c : Thread nD τ).loc main_arg1)) :=
  Stretches.sources (W0 m ρ c)
theorem src2 : W2 m ρ c (Proc.devRef .tc main_v1) = Cert.ReferenceIdeal.Read.val_main_v1 (F := Ideal) (m ((c : Thread nD τ).loc main_arg1)) :=
  (W2_of_ne m ρ c main_v1 (by decide)).trans (src1 m ρ c)
theorem src3 : W3 m ρ c (Proc.devRef .tc main_v1) = Cert.ReferenceIdeal.Read.val_main_v1 (F := Ideal) (m ((c : Thread nD τ).loc main_arg1)) :=
  (Stretches.kept1_v1 (W2 m ρ c)).trans (src2 m ρ c)
theorem src4 : W4 m ρ c (Proc.devRef .tc main_v1) = Cert.ReferenceIdeal.Read.val_main_v1 (F := Ideal) (m ((c : Thread nD τ).loc main_arg1)) :=
  (W4_of_ne m ρ c main_v1 (by decide)).trans (src3 m ρ c)
theorem dst1 : W1 m ρ c (Proc.devRef .tc main_v3) = Cert.ReferenceIdeal.Read.val_main_v3 (F := Ideal) (m ((c : Thread nD τ).loc main_arg1)) :=
  Stretches.destinations (W0 m ρ c)
theorem dst2 : W2 m ρ c (Proc.devRef .tc main_v3) = Cert.ReferenceIdeal.Read.val_main_v3 (F := Ideal) (m ((c : Thread nD τ).loc main_arg1)) :=
  (W2_of_ne m ρ c main_v3 (by decide)).trans (dst1 m ρ c)
theorem dst3 : W3 m ρ c (Proc.devRef .tc main_v3) = Cert.ReferenceIdeal.Read.val_main_v3 (F := Ideal) (m ((c : Thread nD τ).loc main_arg1)) :=
  (Stretches.kept1_v3 (W2 m ρ c)).trans (dst2 m ρ c)
theorem dst4 : W4 m ρ c (Proc.devRef .tc main_v3) = Cert.ReferenceIdeal.Read.val_main_v3 (F := Ideal) (m ((c : Thread nD τ).loc main_arg1)) :=
  (W4_of_ne m ρ c main_v3 (by decide)).trans (dst3 m ρ c)
theorem ew1 : W1 m ρ c (Proc.devRef .tc main_v28) = Cert.ReferenceIdeal.Read.val_main_v28 (F := Ideal) (m ((c : Thread nD τ).loc main_arg1)) :=
  Stretches.edgeWeights (W0 m ρ c)
theorem ew2 : W2 m ρ c (Proc.devRef .tc main_v28) = Cert.ReferenceIdeal.Read.val_main_v28 (F := Ideal) (m ((c : Thread nD τ).loc main_arg1)) :=
  (W2_of_ne m ρ c main_v28 (by decide)).trans (ew1 m ρ c)
theorem ew3 : W3 m ρ c (Proc.devRef .tc main_v28) = Cert.ReferenceIdeal.Read.val_main_v28 (F := Ideal) (m ((c : Thread nD τ).loc main_arg1)) :=
  (Stretches.kept1_v28 (W2 m ρ c)).trans (ew2 m ρ c)
theorem ew4 : W4 m ρ c (Proc.devRef .tc main_v28) = Cert.ReferenceIdeal.Read.val_main_v28 (F := Ideal) (m ((c : Thread nD τ).loc main_arg1)) :=
  (W4_of_ne m ρ c main_v28 (by decide)).trans (ew3 m ρ c)
theorem sw1 : W1 m ρ c (Proc.devRef .tc main_v30) = Cert.ReferenceIdeal.Read.val_main_v30 (F := Ideal) (m ((c : Thread nD τ).loc main_arg1)) :=
  Stretches.selfWeights (W0 m ρ c)
theorem sw2 : W2 m ρ c (Proc.devRef .tc main_v30) = Cert.ReferenceIdeal.Read.val_main_v30 (F := Ideal) (m ((c : Thread nD τ).loc main_arg1)) :=
  (W2_of_ne m ρ c main_v30 (by decide)).trans (sw1 m ρ c)
theorem sw3 : W3 m ρ c (Proc.devRef .tc main_v30) = Cert.ReferenceIdeal.Read.val_main_v30 (F := Ideal) (m ((c : Thread nD τ).loc main_arg1)) :=
  (Stretches.kept1_v30 (W2 m ρ c)).trans (sw2 m ρ c)
theorem sw4 : W4 m ρ c (Proc.devRef .tc main_v30) = Cert.ReferenceIdeal.Read.val_main_v30 (F := Ideal) (m ((c : Thread nD τ).loc main_arg1)) :=
  (W4_of_ne m ρ c main_v30 (by decide)).trans (sw3 m ρ c)

/-! ## The dense steps' operands at each boundary: as launched -/

theorem arg0_1 : W1 m ρ c (Proc.devRef .tc main_arg0) = m ((c : Thread nD τ).loc main_arg0) :=
  Stretches.kept0_arg0 (W0 m ρ c)
theorem arg2_1 : W1 m ρ c (Proc.devRef .tc main_arg2) = m ((c : Thread nD τ).loc main_arg2) :=
  Stretches.kept0_arg2 (W0 m ρ c)
theorem arg3_1 : W1 m ρ c (Proc.devRef .tc main_arg3) = m ((c : Thread nD τ).loc main_arg3) :=
  Stretches.kept0_arg3 (W0 m ρ c)
theorem arg4_1 : W1 m ρ c (Proc.devRef .tc main_arg4) = m ((c : Thread nD τ).loc main_arg4) :=
  Stretches.kept0_arg4 (W0 m ρ c)
theorem arg4_2 : W2 m ρ c (Proc.devRef .tc main_arg4) = m ((c : Thread nD τ).loc main_arg4) :=
  (W2_of_ne m ρ c main_arg4 (by decide)).trans (arg4_1 m ρ c)
theorem arg4_3 : W3 m ρ c (Proc.devRef .tc main_arg4) = m ((c : Thread nD τ).loc main_arg4) :=
  (Stretches.kept1_arg4 (W2 m ρ c)).trans (arg4_2 m ρ c)
theorem arg5_1 : W1 m ρ c (Proc.devRef .tc main_arg5) = m ((c : Thread nD τ).loc main_arg5) :=
  Stretches.kept0_arg5 (W0 m ρ c)
theorem arg5_2 : W2 m ρ c (Proc.devRef .tc main_arg5) = m ((c : Thread nD τ).loc main_arg5) :=
  (W2_of_ne m ρ c main_arg5 (by decide)).trans (arg5_1 m ρ c)
theorem arg5_3 : W3 m ρ c (Proc.devRef .tc main_arg5) = m ((c : Thread nD τ).loc main_arg5) :=
  (Stretches.kept1_arg5 (W2 m ρ c)).trans (arg5_2 m ρ c)
theorem arg6_1 : W1 m ρ c (Proc.devRef .tc main_arg6) = m ((c : Thread nD τ).loc main_arg6) :=
  Stretches.kept0_arg6 (W0 m ρ c)
theorem arg6_2 : W2 m ρ c (Proc.devRef .tc main_arg6) = m ((c : Thread nD τ).loc main_arg6) :=
  (W2_of_ne m ρ c main_arg6 (by decide)).trans (arg6_1 m ρ c)
theorem arg6_3 : W3 m ρ c (Proc.devRef .tc main_arg6) = m ((c : Thread nD τ).loc main_arg6) :=
  (Stretches.kept1_arg6 (W2 m ρ c)).trans (arg6_2 m ρ c)
theorem arg7_1 : W1 m ρ c (Proc.devRef .tc main_arg7) = m ((c : Thread nD τ).loc main_arg7) :=
  Stretches.kept0_arg7 (W0 m ρ c)
theorem arg7_2 : W2 m ρ c (Proc.devRef .tc main_arg7) = m ((c : Thread nD τ).loc main_arg7) :=
  (W2_of_ne m ρ c main_arg7 (by decide)).trans (arg7_1 m ρ c)
theorem arg7_3 : W3 m ρ c (Proc.devRef .tc main_arg7) = m ((c : Thread nD τ).loc main_arg7) :=
  (Stretches.kept1_arg7 (W2 m ρ c)).trans (arg7_2 m ρ c)
theorem arg8_1 : W1 m ρ c (Proc.devRef .tc main_arg8) = m ((c : Thread nD τ).loc main_arg8) :=
  Stretches.kept0_arg8 (W0 m ρ c)
theorem arg8_2 : W2 m ρ c (Proc.devRef .tc main_arg8) = m ((c : Thread nD τ).loc main_arg8) :=
  (W2_of_ne m ρ c main_arg8 (by decide)).trans (arg8_1 m ρ c)
theorem arg8_3 : W3 m ρ c (Proc.devRef .tc main_arg8) = m ((c : Thread nD τ).loc main_arg8) :=
  (Stretches.kept1_arg8 (W2 m ρ c)).trans (arg8_2 m ρ c)
theorem arg9_1 : W1 m ρ c (Proc.devRef .tc main_arg9) = m ((c : Thread nD τ).loc main_arg9) :=
  Stretches.kept0_arg9 (W0 m ρ c)
theorem arg9_2 : W2 m ρ c (Proc.devRef .tc main_arg9) = m ((c : Thread nD τ).loc main_arg9) :=
  (W2_of_ne m ρ c main_arg9 (by decide)).trans (arg9_1 m ρ c)
theorem arg9_3 : W3 m ρ c (Proc.devRef .tc main_arg9) = m ((c : Thread nD τ).loc main_arg9) :=
  (Stretches.kept1_arg9 (W2 m ρ c)).trans (arg9_2 m ρ c)

/-! ## The four steps -/

/-- The first stage leaves the affine layer of `x`. -/
theorem first_array : W2 m ρ c (Proc.devRef .tc main_v31) = Dense.affine (m ((c : Thread nD τ).loc main_arg0)) (m ((c : Thread nD τ).loc main_arg2)) (m ((c : Thread nD τ).loc main_arg3)) := by
  refine (W2_arr m ρ c 3).trans ((Stage1.final (V1 m ρ) c).trans ?_)
  show Dense.affine (W1 m ρ c (Proc.devRef .tc main_arg0)) (W1 m ρ c (Proc.devRef .tc main_arg2)) (W1 m ρ c (Proc.devRef .tc main_arg3)) = _
  rw [arg0_1, arg2_1, arg3_1]

/-- The middle stretch leaves the adjacency product of it. -/
theorem mid_array : W3 m ρ c (Proc.devRef .tc main_v48)
    = Cert.Graph.spmm (Cert.ReferenceIdeal.Read.val_main_v1 (F := Ideal) (m ((c : Thread nD τ).loc main_arg1))) (Cert.ReferenceIdeal.Read.val_main_v3 (F := Ideal) (m ((c : Thread nD τ).loc main_arg1)))
      (Cert.ReferenceIdeal.Read.val_main_v28 (F := Ideal) (m ((c : Thread nD τ).loc main_arg1))) (Cert.ReferenceIdeal.Read.val_main_v30 (F := Ideal) (m ((c : Thread nD τ).loc main_arg1)))
      (Dense.affine (m ((c : Thread nD τ).loc main_arg0)) (m ((c : Thread nD τ).loc main_arg2)) (m ((c : Thread nD τ).loc main_arg3))) := by
  refine (Stretches.product1 (W2 m ρ c)).trans ?_
  rw [src2, dst2, ew2, sw2, first_array]

/-- The second stage leaves the second dense step of that. -/
theorem second_array : W4 m ρ c (Proc.devRef .tc main_v49)
    = Dense.affine (Dense.normRelu
        (Cert.Graph.spmm (Cert.ReferenceIdeal.Read.val_main_v1 (F := Ideal) (m ((c : Thread nD τ).loc main_arg1))) (Cert.ReferenceIdeal.Read.val_main_v3 (F := Ideal) (m ((c : Thread nD τ).loc main_arg1)))
      (Cert.ReferenceIdeal.Read.val_main_v28 (F := Ideal) (m ((c : Thread nD τ).loc main_arg1))) (Cert.ReferenceIdeal.Read.val_main_v30 (F := Ideal) (m ((c : Thread nD τ).loc main_arg1)))
          (Dense.affine (m ((c : Thread nD τ).loc main_arg0)) (m ((c : Thread nD τ).loc main_arg2)) (m ((c : Thread nD τ).loc main_arg3))))
        (m ((c : Thread nD τ).loc main_arg6)) (m ((c : Thread nD τ).loc main_arg7)) (m ((c : Thread nD τ).loc main_arg8)) (m ((c : Thread nD τ).loc main_arg9)))
      (m ((c : Thread nD τ).loc main_arg4)) (m ((c : Thread nD τ).loc main_arg5)) := by
  refine (W4_arr m ρ c 7).trans ((Stage2.final (V3 m ρ) c).trans ?_)
  show Dense.affine (Dense.normRelu (W3 m ρ c (Proc.devRef .tc main_v48)) (W3 m ρ c (Proc.devRef .tc main_arg6)) (W3 m ρ c (Proc.devRef .tc main_arg7))
      (W3 m ρ c (Proc.devRef .tc main_arg8)) (W3 m ρ c (Proc.devRef .tc main_arg9))) (W3 m ρ c (Proc.devRef .tc main_arg4)) (W3 m ρ c (Proc.devRef .tc main_arg5)) = _
  rw [mid_array, arg6_3, arg7_3, arg8_3, arg9_3, arg4_3, arg5_3]

/-- THE KERNEL PROGRAM'S RESULT: product ∘ second dense step ∘ product ∘ first dense step. -/
theorem value : W5 m ρ c (Proc.devRef .tc main_v66)
    = Cert.Graph.spmm (Cert.ReferenceIdeal.Read.val_main_v1 (F := Ideal) (m ((c : Thread nD τ).loc main_arg1))) (Cert.ReferenceIdeal.Read.val_main_v3 (F := Ideal) (m ((c : Thread nD τ).loc main_arg1)))
      (Cert.ReferenceIdeal.Read.val_main_v28 (F := Ideal) (m ((c : Thread nD τ).loc main_arg1))) (Cert.ReferenceIdeal.Read.val_main_v30 (F := Ideal) (m ((c : Thread nD τ).loc main_arg1)))
      (Dense.affine (Dense.normRelu
        (Cert.Graph.spmm (Cert.ReferenceIdeal.Read.val_main_v1 (F := Ideal) (m ((c : Thread nD τ).loc main_arg1))) (Cert.ReferenceIdeal.Read.val_main_v3 (F := Ideal) (m ((c : Thread nD τ).loc main_arg1)))
      (Cert.ReferenceIdeal.Read.val_main_v28 (F := Ideal) (m ((c : Thread nD τ).loc main_arg1))) (Cert.ReferenceIdeal.Read.val_main_v30 (F := Ideal) (m ((c : Thread nD τ).loc main_arg1)))
          (Dense.affine (m ((c : Thread nD τ).loc main_arg0)) (m ((c : Thread nD τ).loc main_arg2)) (m ((c : Thread nD τ).loc main_arg3))))
        (m ((c : Thread nD τ).loc main_arg6)) (m ((c : Thread nD τ).loc main_arg7)) (m ((c : Thread nD τ).loc main_arg8)) (m ((c : Thread nD τ).loc main_arg9)))
      (m ((c : Thread nD τ).loc main_arg4)) (m ((c : Thread nD τ).loc main_arg5))) := by
  refine (Stretches.product2 (W4 m ρ c)).trans ?_
  rw [src4, dst4, ew4, sw4, second_array]

end Cert.KernelIdeal.Whole

end
-- ==== Proof.LibEntryForms.lean ====
/-
  Entry-by-entry forms of the three kinds of array the kernel's regions produce, over any sizes, and the same arrays
  as the host's whole-array operations spell them.

  * the per-edge product: entry `(e, q)` is `weight(e, 0) · feature(e, q)`; the host multiplies the features by the
    weight column broadcast along the rows;
  * a layer's combine step: entry `(r, q)` is `agg(r, q) + (d(r, 0) · d(r, 0)) · x(r, q) + b(0, q)`; the host squares the
    inverse-root degrees first, as a vector, makes that a column and broadcasts it, and makes the bias a row and
    broadcasts it — at every entry the same three extended reals are added in the same order;
  * the positive part, entry by entry, against the host's maximum with a broadcast zero;
  * a matrix product: entry `(r, q)` is the sum over `c` of `x(r, c) · w(c, q)`, which is what the host's dot_general with
    the plain dimension numbers is at the exact values.

  None of these uses a law of arithmetic: each pair is the same expression, read through the layout operations.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Forms

open Idealize.ShloMosaic Idealize.ShloMosaic.ValueIdx

/-- An edge's weight times each of its features. -/
def scaled {E W : Nat} (nrm : (⟨2, ![E, 1]⟩ : Shape).Idx → Ideal .f32) (g : (⟨2, ![E, W]⟩ : Shape).Idx → Ideal .f32) :
    (⟨2, ![E, W]⟩ : Shape).Idx → Ideal .f32 :=
  fun i => nrm (ix2 (i 0) (0 : Fin 1)) * g i

/-- Neighbour sum + (inverse-root degree)² · own feature + bias, entry by entry. -/
def combined {N W : Nat} (agg xp : (⟨2, ![N, W]⟩ : Shape).Idx → Ideal .f32) (dis : (⟨2, ![N, 1]⟩ : Shape).Idx → Ideal .f32)
    (b : (⟨2, ![1, W]⟩ : Shape).Idx → Ideal .f32) : (⟨2, ![N, W]⟩ : Shape).Idx → Ideal .f32 :=
  fun i => (agg i + (dis (ix2 (i 0) (0 : Fin 1)) * dis (ix2 (i 0) (0 : Fin 1))) * xp i) + b (ix2 (0 : Fin 1) (i 1))

/-- The positive part, entry by entry. -/
def positivePart {s : Shape} (x : s.Idx → Ideal .f32) : s.Idx → Ideal .f32 :=
  fun i => max (x i) (Ideal.ofBits .f32 0x00000000#32)

/-- The matrix product, entry by entry. -/
def product {N K M : Nat} (x : (⟨2, ![N, K]⟩ : Shape).Idx → Ideal .f32) (w : (⟨2, ![K, M]⟩ : Shape).Idx → Ideal .f32) :
    (⟨2, ![N, M]⟩ : Shape).Idx → Ideal .f32 :=
  fun i => ∑ cc : Fin K, x (ix2 (i 0) cc) * w (ix2 cc (i 1))

/-- A column `[a, 1]` broadcast along the rows by the host reads, at `(p, q)`, the column at `p`. -/
theorem hostColumn_apply {a b : Nat} {α : Type} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` made a column `[a, 1]` by the host reads, at `(p, u)`, the vector at `p`. -/
theorem hostAsColumn_apply {a : Nat} {α : Type} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A row `[1, b]` broadcast down the rows by the host reads, at `(p, q)`, the row at `q`. -/
theorem hostRow_apply {a b : Nat} {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` made a row `[1, b]` by the host reads, at `(u, q)`, the vector at `q`. -/
theorem hostAsRow_apply {b : Nat} {α : Type} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- The per-edge product as the host spells it: the weight column broadcast along the rows, times the features. -/
theorem scaled_eq_host {E W : Nat} (nrm : (⟨2, ![E, 1]⟩ : Shape).Idx → Ideal .f32) (g : (⟨2, ![E, W]⟩ : Shape).Idx → Ideal .f32)
    (h : (⟨2, ![E, 1]⟩ : Shape).BroadcastsInDim ⟨2, ![E, W]⟩ ![0, 1]) :
    scaled nrm g = mulf (F := Ideal) (φ := .f32) (broadcastInDim ⟨2, ![E, W]⟩ ![0, 1] h nrm) g := by
  funext i
  obtain ⟨p, q, rfl⟩ : ∃ (p : Fin E) (q : Fin W), i = ix2 p q := ⟨i 0, i 1, eq_ix2 i⟩
  rw [mulf_apply, hostColumn_apply]
  rfl

/-- The combine step as the host spells it. The kernel is handed the inverse-root degrees as a column and the bias
    as a one-row cast of the bias vector; the host squares the degrees as a vector, then makes the column. -/
theorem combined_eq_host {N W : Nat} (agg xp : (⟨2, ![N, W]⟩ : Shape).Idx → Ideal .f32) (d : (⟨1, ![N]⟩ : Shape).Idx → Ideal .f32)
    (b : (⟨1, ![W]⟩ : Shape).Idx → Ideal .f32)
    (hcol : (⟨1, ![N]⟩ : Shape).BroadcastsInDim ⟨2, ![N, 1]⟩ ![0])
    (hcols : (⟨2, ![N, 1]⟩ : Shape).BroadcastsInDim ⟨2, ![N, W]⟩ ![0, 1])
    (hcast : (⟨1, ![W]⟩ : Shape).ShapeCasts ⟨2, ![1, W]⟩)
    (hrow : (⟨1, ![W]⟩ : Shape).BroadcastsInDim ⟨2, ![1, W]⟩ ![1])
    (hrows : (⟨2, ![1, W]⟩ : Shape).BroadcastsInDim ⟨2, ![N, W]⟩ ![0, 1]) :
    combined agg xp (broadcastInDim ⟨2, ![N, 1]⟩ ![0] hcol d) (shapeCast ⟨2, ![1, W]⟩ b hcast)
      = addf (F := Ideal) (φ := .f32) (addf (F := Ideal) (φ := .f32) agg (mulf (F := Ideal) (φ := .f32) (broadcastInDim ⟨2, ![N, W]⟩ ![0, 1] hcols (broadcastInDim ⟨2, ![N, 1]⟩ ![0] hcol (mulf (F := Ideal) (φ := .f32) d d))) xp))
          (broadcastInDim ⟨2, ![N, W]⟩ ![0, 1] hrows (broadcastInDim ⟨2, ![1, W]⟩ ![1] hrow b)) := by
  funext i
  obtain ⟨p, q, rfl⟩ : ∃ (p : Fin N) (q : Fin W), i = ix2 p q := ⟨i 0, i 1, eq_ix2 i⟩
  rw [addf_apply, addf_apply, mulf_apply, hostColumn_apply, hostAsColumn_apply, mulf_apply, hostRow_apply, hostAsRow_apply]
  show (agg (ix2 p q) + (broadcastInDim ⟨2, ![N, 1]⟩ ![0] hcol d (ix2 p (0 : Fin 1)) * broadcastInDim ⟨2, ![N, 1]⟩ ![0] hcol d (ix2 p (0 : Fin 1))) * xp (ix2 p q))
      + shapeCast ⟨2, ![1, W]⟩ b hcast (ix2 (0 : Fin 1) q) = _
  rw [hostAsColumn_apply, shapeCast_a_1a_apply]

/-- The positive part as the host spells it: the maximum with a broadcast zero. -/
theorem positivePart_eq_host {s : Shape} (x : s.Idx → Ideal .f32) (h : (⟨0, ![]⟩ : Shape).BroadcastsInDim s ![]) :
    positivePart x = maximumf (F := Ideal) (φ := .f32) x (broadcastInDim s ![] h (constant (F := Ideal) ⟨0, ![]⟩ .f32 0x00000000#32)) := by
  funext i
  rw [maximumf_apply]
  rfl

/-- The matrix product as the host spells it: dot_general with the plain dimension numbers. -/
theorem product_eq_host {N K M : Nat} (x : (⟨2, ![N, K]⟩ : Shape).Idx → Ideal .f32) (w : (⟨2, ![K, M]⟩ : Shape).Idx → Ideal .f32)
    (prec : Option ContractPrecision) :
    product x w = Host.dotGeneral (F := Ideal) (DotDims.plain N K M) prec (x : FVec Ideal ⟨2, ![N, K]⟩ .f32) (w : FVec Ideal ⟨2, ![K, M]⟩ .f32) := by
  funext i
  obtain ⟨p, q, rfl⟩ : ∃ (p : Fin N) (q : Fin M), i = ix2 p q := ⟨i 0, i 1, eq_ix2 i⟩
  exact (StackMember.dotGeneral_plain_apply prec x w p q).symm

end Cert.Forms

end
-- ==== Proof.RefWhole.lean ====
/-
  The reference program's result as the composition of its four steps.

  The reference is one line of whole-array operations. Read in order it is: the affine layer `x·W₁ + b₁`; the product
  with the normalised adjacency matrix; batch normalisation with fixed statistics, the positive part, and the affine layer
  `·W₂ + b₂`; the adjacency product again. The two dense steps are read entry by entry (a `dot_general` with the plain
  dimension numbers is the sum over the contracted coordinate; a vector broadcast to one row and down the rows reads the
  vector at the column) and are exactly `Dense.affine` and `Dense.normRelu`; the two adjacency products are the line of
  operations `Graph.spmm` names, applied to the edge quantities the reference computes from the edge list.
-/
import proofs.«121674_j33440615367377_1_alg».proof.Proof.Gen.ReferenceIdeal.Read
import proofs.«121674_j33440615367377_1_alg».proof.Proof.LibDenseRows
import proofs.«121674_j33440615367377_1_alg».proof.Proof.GraphProduct
import proofs.«121674_j33440615367377_1_alg».proof.Proof.LibRowOps
import proofs.«121674_j33440615367377_1_alg».proof.Proof.LibEntryForms

noncomputable section

open scoped BigOperators

namespace Cert.ReferenceIdeal.Whole

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 x4 : (⟨S128x128, .f32⟩ : BufTy).Contents (Elt Ideal)) (x3 x5 x6 x7 x8 x9 : (⟨S128, .f32⟩ : BufTy).Contents (Elt Ideal))

/-- The products' dimension numbers are the plain ones: rows by columns, one contracted axis. -/
theorem dims_plain : dot_S100000x128_S128x128_S100000x128_1_0_0_1_n_n = DotDims.plain 100000 128 128 := rfl

/-- The first dense step is the affine layer of `x`. -/
theorem stage1 : val_main_v34 (F := Ideal) x0 x2 x3 = Dense.affine x0 x2 x3 := by
  funext i
  obtain ⟨r, c, rfl⟩ : ∃ (r : Fin 100000) (c : Fin 128), i = ix2 r c := ⟨i 0, i 1, eq_ix2 i⟩
  unfold val_main_v34 val_main_v31 val_main_v33 val_main_v32
  exact LibRowOps.host_affine_apply dot_S100000x128_S128x128_S100000x128_1_0_0_1_n_n dims_plain none x0 x2 x3
    bcast_S128_S1x128_1 bcast_S1x128_S100000x128_0_1 r c

/-- The normalisation and positive part, as the reference spells them, at an entry. -/
theorem normRelu_entry (H : (⟨S100000x128, .f32⟩ : BufTy).Contents (Elt Ideal)) (r : Fin 100000) (k : Fin 128) :
    maximumf
        (addf
          (mulf
            (mulf (subf H (broadcastInDim S100000x128 ![0, 1] bcast_S1x128_S100000x128_0_1 (broadcastInDim S1x128 ![1] bcast_S128_S1x128_1 x8)))
              (broadcastInDim S100000x128 ![0, 1] bcast_S1x128_S100000x128_0_1
                (broadcastInDim S1x128 ![1] bcast_S128_S1x128_1
                  (Host.rsqrt (addf x9 (broadcastInDim S128 ![] bcast_S_S128 (constant (F := Ideal) S_ .f32 0x3727C5AC#32)))))))
            (broadcastInDim S100000x128 ![0, 1] bcast_S1x128_S100000x128_0_1 (broadcastInDim S1x128 ![1] bcast_S128_S1x128_1 x6)))
          (broadcastInDim S100000x128 ![0, 1] bcast_S1x128_S100000x128_0_1 (broadcastInDim S1x128 ![1] bcast_S128_S1x128_1 x7)))
        (broadcastInDim S100000x128 ![] bcast_S_S100000x128 (constant (F := Ideal) S_ .f32 0x00000000#32)) (ix2 r k)
      = Dense.normRelu H x6 x7 x8 x9 (ix2 r k) := by
  rw [Dense.normRelu_apply, maximumf_apply, addf_apply, mulf_apply, mulf_apply, subf_apply,
    Forms.hostRow_apply, Forms.hostRow_apply, Forms.hostRow_apply, Forms.hostRow_apply,
    Forms.hostAsRow_apply, Forms.hostAsRow_apply, Forms.hostAsRow_apply, Forms.hostAsRow_apply]
  rfl

/-- The second dense step is the affine layer of the normalised positive part of what the first adjacency product left. -/
theorem stage2 : val_main_v71 (F := Ideal) x0 x1 x2 x3 x4 x5 x6 x7 x8 x9
    = Dense.affine (Dense.normRelu (val_main_v51 (F := Ideal) x0 x1 x2 x3) x6 x7 x8 x9) x4 x5 := by
  funext i
  obtain ⟨r, c, rfl⟩ : ∃ (r : Fin 100000) (c : Fin 128), i = ix2 r c := ⟨i 0, i 1, eq_ix2 i⟩
  unfold val_main_v71 val_main_v68 val_main_v70 val_main_v69
  refine (LibRowOps.host_affine_apply dot_S100000x128_S128x128_S100000x128_1_0_0_1_n_n dims_plain none
    (val_main_v67 (F := Ideal) x0 x1 x2 x3 x6 x7 x8 x9) x4 x5 bcast_S128_S1x128_1 bcast_S1x128_S100000x128_0_1 r c).trans ?_
  rw [Dense.affine_apply]
  refine congrArg (· + x5 (ix1 c)) (Finset.sum_congr rfl fun k _ => congrArg (· * x4 (ix2 k c)) ?_)
  exact normRelu_entry x6 x7 x8 x9 (val_main_v51 (F := Ideal) x0 x1 x2 x3) r k

/-- The first adjacency product. -/
theorem product1 : val_main_v51 (F := Ideal) x0 x1 x2 x3
    = Cert.Graph.spmm (val_main_v1 (F := Ideal) x1) (val_main_v3 (F := Ideal) x1) (val_main_v28 (F := Ideal) x1)
        (val_main_v30 (F := Ideal) x1) (val_main_v34 (F := Ideal) x0 x2 x3) := rfl

/-- The second adjacency product. -/
theorem product2 : val_main_v88 (F := Ideal) x0 x1 x2 x3 x4 x5 x6 x7 x8 x9
    = Cert.Graph.spmm (val_main_v1 (F := Ideal) x1) (val_main_v3 (F := Ideal) x1) (val_main_v28 (F := Ideal) x1)
        (val_main_v30 (F := Ideal) x1) (val_main_v71 (F := Ideal) x0 x1 x2 x3 x4 x5 x6 x7 x8 x9) := rfl

/-- THE REFERENCE'S RESULT: product ∘ second dense step ∘ product ∘ first dense step. -/
theorem result : val_main_v88 (F := Ideal) x0 x1 x2 x3 x4 x5 x6 x7 x8 x9
    = Cert.Graph.spmm (val_main_v1 (F := Ideal) x1) (val_main_v3 (F := Ideal) x1) (val_main_v28 (F := Ideal) x1) (val_main_v30 (F := Ideal) x1)
        (Dense.affine (Dense.normRelu
          (Cert.Graph.spmm (val_main_v1 (F := Ideal) x1) (val_main_v3 (F := Ideal) x1) (val_main_v28 (F := Ideal) x1) (val_main_v30 (F := Ideal) x1)
            (Dense.affine x0 x2 x3)) x6 x7 x8 x9) x4 x5) := by
  rw [product2, stage2, product1, stage1]

end Cert.ReferenceIdeal.Whole

end
-- ==== Proof.lean ====
/-
  A two-layer graph convolution, `Â·(relu(bn(Â·(x·W₁ + b₁)))·W₂ + b₂)`, with `Â` the normalised adjacency matrix of an
  edge list: the kernel program evaluates the two dense steps on blocks of 5000 rows and the two products with `Â` by
  the host's gather and scatter-add; the reference evaluates all four steps by whole-array operations.

  At the exact values the two programs compute the same function of their arguments, and no law of arithmetic is needed
  to see it: the products with `Â` are the same line of operations on both sides (`Graph.spmm`), applied to the same four
  graph quantities, which both sides compute from the edge list by the same operations; and each dense step is row-local
  (`Dense.affine`, `Dense.normRelu`), so evaluating it block of rows by block of rows and laying the blocks side by side
  gives the step applied to the whole matrix. A change of float format, which is all that differs otherwise, is the
  identity at the exact values. The precondition is not used.

  * `KernelRun`     — the kernel program's run, the result buffer named by the fold through its five stretches;
  * `KernelBodies`, `KernelBlocks0`, `KernelBlocks1` — each tiled stage's block, and from blocks to the array;
  * `KernelStretches`, `KernelWhole` — the host stretches read, and the kernel program's result as the composition;
  * `RefWhole`      — the reference's result as the same composition.
  The idealization rewrote nothing, so there is nothing to preserve.
-/
import proofs.«121674_j33440615367377_1_alg».proof.Defs
import proofs.«121674_j33440615367377_1_alg».proof.Proof.Gen.Kernel
import proofs.«121674_j33440615367377_1_alg».proof.Proof.Gen.Kernel.Skeleton
import proofs.«121674_j33440615367377_1_alg».proof.Proof.Gen.Kernel.Launch
import proofs.«121674_j33440615367377_1_alg».proof.Proof.Gen.Kernel.Points
import proofs.«121674_j33440615367377_1_alg».proof.Proof.Gen.Kernel.Frame
import proofs.«121674_j33440615367377_1_alg».proof.Proof.Gen.KernelIdeal
import proofs.«121674_j33440615367377_1_alg».proof.Proof.Gen.KernelIdeal.Skeleton
import proofs.«121674_j33440615367377_1_alg».proof.Proof.Gen.KernelIdeal.Launch
import proofs.«121674_j33440615367377_1_alg».proof.Proof.Gen.KernelIdeal.Points
import proofs.«121674_j33440615367377_1_alg».proof.Proof.Gen.KernelIdeal.Frame
import proofs.«121674_j33440615367377_1_alg».proof.Proof.Gen.ReferenceIdeal
import proofs.«121674_j33440615367377_1_alg».proof.Proof.Gen.Pre_finite_inputs
import proofs.«121674_j33440615367377_1_alg».proof.Proof.Gen.ReferenceIdeal.Run
import proofs.«121674_j33440615367377_1_alg».proof.Proof.Gen.ReferenceIdeal.Read
import proofs.«121674_j33440615367377_1_alg».proof.Proof.KernelRun
import proofs.«121674_j33440615367377_1_alg».proof.Proof.KernelWhole
import proofs.«121674_j33440615367377_1_alg».proof.Proof.RefWhole
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same array: the four-step composition of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v66),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v88_eq, e0, e1, e2, e3, e4, e5, e6, e7, e8, e9, Cert.ReferenceIdeal.Whole.result]
  exact (Cert.KernelIdeal.Whole.value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
